-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x4096.size a
  hwx0_4 : ∀ i : grid0.Coords, EltTy.bits .f32 = 32 ∨ (Rect.block (s := S8192x4096) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Payload.lean ====
/-
  What the kernel's body stores, read at one entry (p, q) of its [1024, 256] output block: the contraction of
  row p of the activation block with row q of the weight block (each weight converted from its integer, both
  roundings to the narrower float format being the identity on extended reals), times entry q of the scale
  block's one row, plus entry q of the bias block's one row.
-/
import proofs.«142029_j89060441849929_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QLin.Body

open Cert.KernelIdeal Cert.KernelIdeal.Gen Idealize.ShloMosaic Idealize.ShloMosaic.ValueIdx

/-- The block product's dimension numbers: both operands are contracted along their SECOND axis. -/
abbrev dd : DotDims S1024x4096 S256x4096 S1024x256 := dot_S1024x4096_S256x4096_S1024x256_1_1_0_0_n_n

theorem dd_rank : dd.contr.rank = 1 := rfl
theorem dd_size : dd.contr.size ⟨0, by rw [dd_rank]; exact Nat.one_pos⟩ = 4096 := rfl

/-- The left operand's first axis is the output's first axis. -/
theorem dd_lhs_0 (j : S1024x256.Idx) (κ : dd.contr.Idx) : (dd.lhsIdx j κ 0).val = (j 0).val := by
  unfold DotDims.lhsIdx
  rw [dif_neg (show ¬(0 : Fin S1024x4096.rank) ∈ dd.lhsBatch by decide), dif_pos (show (0 : Fin S1024x4096.rank) ∈ dd.lhsNonContracting by decide)]
  rfl

/-- The right operand's first axis is the output's second axis. -/
theorem dd_rhs_0 (j : S1024x256.Idx) (κ : dd.contr.Idx) : (dd.rhsIdx j κ 0).val = (j 1).val := by
  unfold DotDims.rhsIdx
  rw [dif_neg (show ¬(0 : Fin S256x4096.rank) ∈ dd.rhsBatch by decide), dif_pos (show (0 : Fin S256x4096.rank) ∈ dd.rhsNonContracting by decide)]
  rfl

/-- At output entry (p, q) and contraction coordinate k the left operand is read at (p, k) … -/
theorem dd_lhs (p : Fin 1024) (q : Fin 256) (k : Fin 4096) :
    dd.lhsIdx (ix2 p q) ((contrEquiv1 dd 4096 dd_rank dd_size).symm k) = ix2 p k := by
  funext a
  refine Fin.ext ?_
  match a with
  | ⟨0, _⟩ => exact dd_lhs_0 _ _
  | ⟨1, _⟩ =>
    refine (dd.lhsIdx_val_of_single (cl := 1) rfl (ix2 p q) _).trans ?_
    exact contrEquiv1_symm_val dd 4096 dd_rank dd_size k

/-- … and the right operand at (q, k): its FIRST axis is the output's second. -/
theorem dd_rhs (p : Fin 1024) (q : Fin 256) (k : Fin 4096) :
    dd.rhsIdx (ix2 p q) ((contrEquiv1 dd 4096 dd_rank dd_size).symm k) = ix2 q k := by
  funext a
  refine Fin.ext ?_
  match a with
  | ⟨0, _⟩ => exact dd_rhs_0 _ _
  | ⟨1, _⟩ =>
    refine (dd.rhsIdx_val_of_single (cr := 1) rfl (ix2 p q) _).trans ?_
    exact contrEquiv1_symm_val dd 4096 dd_rank dd_size k

/-- The block product into the zero accumulator, at (p, q): the sum over k of L[p, k] · R[q, k]. -/
theorem matmul_at {φ₁ φ₂ : FTy} (L : FVec Ideal S1024x4096 φ₁) (R : FVec Ideal S256x4096 φ₂) (p : Fin 1024) (q : Fin 256) :
    FloatOps.matmul dd none L R (constant S1024x256 .f32 0x00000000#32) (ix2 p q) = ∑ k : Fin 4096, L (ix2 p k) * R (ix2 q k) := by
  refine (Ideal.matmul_constant_zero_apply dd none L R (ix2 p q)).trans ?_
  rw [← Equiv.sum_comp (contrEquiv1 dd 4096 dd_rank dd_size).symm]
  refine Finset.sum_congr rfl fun k _ => ?_
  rw [dd_lhs, dd_rhs]

/-- The stored value at (p, q). -/
theorem pay_apply (x0 : Vec Ideal S1024x4096 .f32) (x1 : Vec Ideal S256x4096 .i32) (x2 x3 : Vec Ideal S1x256 .f32)
    (p : Fin 1024) (q : Fin 256) :
    k0_pay1 (F := Ideal) x0 x1 x2 x3 (ix2 p q)
      = (∑ k : Fin 4096, x0 (ix2 p k) * FloatOps.sitofp (F := Ideal) .f32 (x1 (ix2 q k))) * x2 (ix2 (0 : Fin 1) q) + x3 (ix2 (0 : Fin 1) q) := by
  unfold k0_pay1
  rw [addf_apply, mulf_apply]
  rw [broadcastTo_1b_ab_apply, broadcastTo_1b_ab_apply, shapeCast_self, shapeCast_self]
  refine congrArg (fun z => z * x2 (ix2 (0 : Fin 1) q) + x3 (ix2 (0 : Fin 1) q)) ?_
  exact matmul_at _ _ p q

end Cert.QLin.Body

end
-- ==== Proof.Spec.lean ====
/-
  The quantized linear layer on the extended reals, as ONE function of its four argument arrays.

  For activations x : [8192, 4096], integer weights w : [4096, 4096] (row o holds the weights of output feature o),
  per-feature scales s : [4096] and biases b : [4096], the entry at (t, o) is

      (∑ k, x[t, k] · w[o, k]) · s[o] + b[o],

  each integer weight read as the real number it denotes (signed). Both programs compute this entry with the
  sum, the product and the addition in this very arrangement, so no law of the extended reals beyond the
  definitions is needed to join them, and finiteness of the inputs is never used.
-/
import Idealize.ShloMosaic.PureOps.Ideal
import Idealize.ShloMosaic.Lib.ValueIdx

noncomputable section

open scoped BigOperators

namespace Cert.QLin

open Idealize.ShloMosaic Idealize.ShloMosaic.ValueIdx

/-- The layer's entry at (t, o) = (i 0, i 1): the row of activations against the row of weights of feature o,
    scaled and shifted by that feature's scale and bias. -/
def qlin (x : (⟨2, ![8192, 4096]⟩ : Shape).Idx → EReal) (w : (⟨2, ![4096, 4096]⟩ : Shape).Idx → BitVec 32)
    (s b : (⟨1, ![4096]⟩ : Shape).Idx → EReal) : (⟨2, ![8192, 4096]⟩ : Shape).Idx → EReal :=
  fun i => (∑ k : Fin 4096, x (ix2 (i 0) k) * FloatOps.sitofp (F := Ideal) .f32 (w (ix2 (i 1) k))) * s (ix1 (i 1)) + b (ix1 (i 1))

theorem qlin_apply (x : (⟨2, ![8192, 4096]⟩ : Shape).Idx → EReal) (w : (⟨2, ![4096, 4096]⟩ : Shape).Idx → BitVec 32)
    (s b : (⟨1, ![4096]⟩ : Shape).Idx → EReal) (t : Fin 8192) (o : Fin 4096) :
    qlin x w s b (ix2 t o)
      = (∑ k : Fin 4096, x (ix2 t k) * FloatOps.sitofp (F := Ideal) .f32 (w (ix2 o k))) * s (ix1 o) + b (ix1 o) := rfl

end Cert.QLin

end
-- ==== Proof.Blocks.lean ====
/-
  From blocks to the array. The grid has 8 × 16 points; point (i, j) is handed rows 1024·i … 1024·i + 1023 of
  the activations (all 4096 columns), rows 256·j … 256·j + 255 of the weights, entries 256·j … 256·j + 255 of
  the scale and of the bias (each reshaped on the host from [4096] to one row [1, 4096]), and writes back block
  (i, j) of the [8192, 4096] result. A block of the layer is the layer of the blocks: entry (p, q) of what
  point (i, j) stores is the layer's entry (1024·i + p, 256·j + q). The 128 blocks tile the result, so after the
  run the result array is the layer of the four argument arrays.
-/
import proofs.«142029_j89060441849929_2_alg».proof.Proof.Gen.KernelIdeal.Value
import proofs.«142029_j89060441849929_2_alg».proof.Proof.Payload
import proofs.«142029_j89060441849929_2_alg».proof.Proof.Spec
import Idealize.ShloMosaic.Lib.StableHlo.Run
import Idealize.ShloMosaic.Lib.ValueIdx
import Idealize.ShloMosaic.Lib.ValueLayout

noncomputable section

open scoped BigOperators

namespace Cert.QLin.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.QLin Cert.QLin.Body

/-! ## A block of the layer is the layer of the blocks -/

/-- If the four blocks a point is handed are the rows `1024·bi + p` of the activations, the rows `256·bj + q` of
    the weights and the entries `256·bj + q` of the scale and the bias, the value it stores at (p, q) is the
    layer's entry at (1024·bi + p, 256·bj + q). -/
theorem block_entry (X : (⟨2, ![8192, 4096]⟩ : Shape).Idx → EReal) (W : (⟨2, ![4096, 4096]⟩ : Shape).Idx → BitVec 32)
    (S B : (⟨1, ![4096]⟩ : Shape).Idx → EReal)
    (x0 : Vec Ideal S1024x4096 .f32) (x1 : Vec Ideal S256x4096 .i32) (x2 x3 : Vec Ideal S1x256 .f32)
    (bi bj : Nat) (hbi : bi ≤ 7) (hbj : bj ≤ 15)
    (h0 : ∀ (p : Fin 1024) (k : Fin 4096), x0 (ix2 p k) = X (ix2 ⟨bi * 1024 + p.val, by omega⟩ k))
    (h1 : ∀ (q : Fin 256) (k : Fin 4096), x1 (ix2 q k) = W (ix2 ⟨bj * 256 + q.val, by omega⟩ k))
    (h2 : ∀ q : Fin 256, x2 (ix2 (0 : Fin 1) q) = S (ix1 ⟨bj * 256 + q.val, by omega⟩))
    (h3 : ∀ q : Fin 256, x3 (ix2 (0 : Fin 1) q) = B (ix1 ⟨bj * 256 + q.val, by omega⟩))
    (p : Fin 1024) (q : Fin 256) :
    k0_pay1 (F := Ideal) x0 x1 x2 x3 (ix2 p q)
      = qlin X W S B (ix2 ⟨bi * 1024 + p.val, by omega⟩ ⟨bj * 256 + q.val, by omega⟩) := by
  rw [pay_apply, qlin_apply]
  simp only [h0, h1, h2, h3]

variable (m : (ℓ : Loc nD τ sig) → Buf (Elt Ideal) ℓ) (ρ : Dev nD → PrngReg)

/-! ## What the region finds in the two reshaped buffers -/

/-- The scale as the region finds it: the [4096] argument laid out as one row. -/
theorem V_scale (c : Dev nD) : (V m c main_v0 : S1x4096.Idx → EReal)
    = shapeCast S1x4096 (m ((c : Thread nD τ).loc main_arg2)) shapeCasts_S4096_S1x4096 := by
  dsimp only [Gen.V, Gen.hostOps0]
  after_results
  rfl

/-- The bias as the region finds it: the [4096] argument laid out as one row. -/
theorem V_bias (c : Dev nD) : (V m c main_v1 : S1x4096.Idx → EReal)
    = shapeCast S1x4096 (m ((c : Thread nD τ).loc main_arg3)) shapeCasts_S4096_S1x4096 := by
  dsimp only [Gen.V, Gen.hostOps0]
  after_results
  rfl

/-! ## The printed index maps, decided over the 128 grid points -/

/-- The activation block moves with the output's row block, the weight, scale and bias blocks with the output's
    column block; the other block coordinates are 0; the output's block coordinates stay below 8 and 16. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 15 :=
  (by decide +kernel : ∀ t : Fin grid0.N, _)

/-- Every output block is some point's. -/
theorem idx_onto : ∀ (q0 : Fin 8) (q1 : Fin 16), ∃ t : Fin cfg0.N, win0_4.index t = ![q0.val, q1.val] :=
  (by decide +kernel : ∀ (q0 : Fin 8) (q1 : Fin 16), ∃ t : Fin grid0.N, win0_4.index t = ![q0.val, q1.val])

/-! ## The blocks a point is handed, read at an entry -/

/-- The activation block at (p, k) is the activations at (block row · 1024 + p, block column · 4096 + k). -/
theorem iblk0_apply (c : Dev nD) (t : Fin cfg0.N) (p : Fin 1024) (k : Fin 4096) (i : S8192x4096.Idx)
    (hi0 : (i 0).val = win0_0.index t (0 : Fin 2) * 1024 + p.val) (hi1 : (i 1).val = win0_0.index t (1 : Fin 2) * 4096 + k.val) :
    (iblk m c 0 t : Vec Ideal S1024x4096 .f32) (ix2 p k) = (m ((c : Thread nD τ).loc main_arg0) : S8192x4096.Idx → EReal) i := by
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = (i 0).val; omega
  | ⟨1, _⟩ => show win0_0.index t (1 : Fin 2) * 4096 + 1 * k.val = (i 1).val; omega

/-- The weight block at (q, k) is the weights at (block row · 256 + q, block column · 4096 + k). -/
theorem iblk1_apply (c : Dev nD) (t : Fin cfg0.N) (q : Fin 256) (k : Fin 4096) (i : S4096x4096.Idx)
    (hi0 : (i 0).val = win0_1.index t (0 : Fin 2) * 256 + q.val) (hi1 : (i 1).val = win0_1.index t (1 : Fin 2) * 4096 + k.val) :
    (iblk m c 1 t : Vec Ideal S256x4096 .i32) (ix2 q k) = (m ((c : Thread nD τ).loc main_arg1) : S4096x4096.Idx → BitVec 32) i := by
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = (i 0).val; omega
  | ⟨1, _⟩ => show win0_1.index t (1 : Fin 2) * 4096 + 1 * k.val = (i 1).val; omega

/-- The scale block's one row at q is the scale argument at block column · 256 + q. -/
theorem iblk2_apply (c : Dev nD) (t : Fin cfg0.N) (q : Fin 256) (o : Fin 4096)
    (hr : win0_2.index t (0 : Fin 2) = 0) (ho : o.val = win0_2.index t (1 : Fin 2) * 256 + q.val) :
    (iblk m c 2 t : Vec Ideal S1x256 .f32) (ix2 (0 : Fin 1) q) = (m ((c : Thread nD τ).loc main_arg2) : S4096.Idx → EReal) (ix1 o) := by
  unfold iblk
  rw [View.read_apply]
  show V m c main_v0 _ = _
  rw [V_scale]
  have e : ((cfg0.win 2).blk t).view.emb (ix2 (0 : Fin 1) q) = ix2 (0 : Fin 1) o := funext fun a => Fin.ext (by
    match a with
    | ⟨0, _⟩ => show win0_2.index t (0 : Fin 2) * 1 + 1 * 0 = 0; omega
    | ⟨1, _⟩ => show win0_2.index t (1 : Fin 2) * 256 + 1 * q.val = o.val; omega)
  rw [e]
  exact shapeCast_a_1a_apply _ _ _ _

/-- The bias block's one row at q is the bias argument at block column · 256 + q. -/
theorem iblk3_apply (c : Dev nD) (t : Fin cfg0.N) (q : Fin 256) (o : Fin 4096)
    (hr : win0_3.index t (0 : Fin 2) = 0) (ho : o.val = win0_3.index t (1 : Fin 2) * 256 + q.val) :
    (iblk m c 3 t : Vec Ideal S1x256 .f32) (ix2 (0 : Fin 1) q) = (m ((c : Thread nD τ).loc main_arg3) : S4096.Idx → EReal) (ix1 o) := by
  unfold iblk
  rw [View.read_apply]
  show V m c main_v1 _ = _
  rw [V_bias]
  have e : ((cfg0.win 3).blk t).view.emb (ix2 (0 : Fin 1) q) = ix2 (0 : Fin 1) o := funext fun a => Fin.ext (by
    match a with
    | ⟨0, _⟩ => show win0_3.index t (0 : Fin 2) * 1 + 1 * 0 = 0; omega
    | ⟨1, _⟩ => show win0_3.index t (1 : Fin 2) * 256 + 1 * q.val = o.val; omega)
  rw [e]
  exact shapeCast_a_1a_apply _ _ _ _

/-! ## What a point writes back, the cover, the array after the run -/

/-- The layer of the four argument arrays on core `c`. -/
abbrev result (c : Dev nD) : S8192x4096.Idx → EReal :=
  qlin (m ((c : Thread nD τ).loc main_arg0)) (m ((c : Thread nD τ).loc main_arg1))
    (m ((c : Thread nD τ).loc main_arg2)) (m ((c : Thread nD τ).loc main_arg3))

theorem hz : (![0, 0] : Fin 2 → Nat) = fun _ => 0 := funext fun a => by fin_cases a <;> rfl

/-- What point `t` writes back is block `t` of the layer. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x4096) hz, View.ld_unit_zero (S := S256x4096) hz, View.ld_unit_zero (S := S1x256) hz]
  obtain ⟨e00, e01, e10, e11, e20, e21, e30, e31, b0, b1⟩ := idx_facts t
  funext j
  revert j
  show ∀ j : S1024x256.Idx, k0_pay1 (iblk m c 0 t) (iblk m c 1 t) (iblk m c 2 t) (iblk m c 3 t) j
      = result m c (((cfg0.win 4).blk t).view.emb j)
  intro j
  obtain ⟨p, q, rfl⟩ : ∃ (p : Fin 1024) (q : Fin 256), j = ix2 p q := ⟨j 0, j 1, eq_ix2 j⟩
  refine (block_entry (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t)
    (win0_4.index t (0 : Fin 2)) (win0_4.index t (1 : Fin 2)) b0 b1
    (fun p k => iblk0_apply m c t p k _
      (by show win0_4.index t (0 : Fin 2) * 1024 + p.val = win0_0.index t (0 : Fin 2) * 1024 + p.val; omega)
      (by show k.val = win0_0.index t (1 : Fin 2) * 4096 + k.val; omega))
    (fun q k => iblk1_apply m c t q k _
      (by show win0_4.index t (1 : Fin 2) * 256 + q.val = win0_1.index t (0 : Fin 2) * 256 + q.val; omega)
      (by show k.val = win0_1.index t (1 : Fin 2) * 4096 + k.val; omega))
    (fun q => iblk2_apply m c t q _ e20
      (by show win0_4.index t (1 : Fin 2) * 256 + q.val = win0_2.index t (1 : Fin 2) * 256 + q.val; omega))
    (fun q => iblk3_apply m c t q _ e30
      (by show win0_4.index t (1 : Fin 2) * 256 + q.val = win0_3.index t (1 : Fin 2) * 256 + q.val; omega)) p q).trans ?_
  refine congrArg (result m c) (funext fun a => Fin.ext ?_)
  match a with
  | ⟨0, _⟩ => show win0_4.index t (0 : Fin 2) * 1024 + p.val = win0_4.index t (0 : Fin 2) * 1024 + 1 * p.val; omega
  | ⟨1, _⟩ => show win0_4.index t (1 : Fin 2) * 256 + q.val = win0_4.index t (1 : Fin 2) * 256 + 1 * q.val; omega

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v2).slice (win0_4.rect t)).set ↔ _
  rw [View.set_slice_whole, Rect.mem_set_unit]
  exact Iff.rfl

/-- The blocks cover the result: entry (r, o) lies in the block of the point with block coordinates
    (r / 1024, o / 256). -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- The result array after the run is the layer of the argument arrays. -/
theorem final (c : Dev nD) : (dats m 0 c).arrAt 4 cfg0.N = result m c :=
  (dats m 0 c).arrAt_eq_of_cover 4 (result m c) (fun t _ => flushed_eq m c t) cover

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.QLin.Blocks

end
-- ==== Proof.RefValue.lean ====
/-
  The reference computes the layer: its result, read at an index (t, o), is the contraction of row t of the
  activations with row o of the converted weights, times the scale of feature o, plus its bias. The two
  broadcasts of a [4096] vector to [8192, 4096] (through [1, 4096]) read the vector at the column coordinate.
-/
import proofs.«142029_j89060441849929_2_alg».proof.Proof.Gen.ReferenceIdeal.Read
import proofs.«142029_j89060441849929_2_alg».proof.Proof.Spec

noncomputable section

open scoped BigOperators

namespace Cert.QLin.Ref

open Cert.ReferenceIdeal Cert.ReferenceIdeal.Read Idealize.ShloMosaic Idealize.ShloMosaic.ValueIdx

/-- Row t of the left operand, at contraction coordinate k. -/
theorem lidx_eq (i : S8192x4096.Idx) (k : Fin 4096) : lidx_main_v1 i k = ix2 (i 0) k :=
  funext fun a => Fin.ext (by match a with | ⟨0, _⟩ => rfl | ⟨1, _⟩ => rfl)

/-- Row o of the right operand (the contraction runs over the weights' SECOND axis), at coordinate k. -/
theorem ridx_eq (i : S8192x4096.Idx) (k : Fin 4096) : ridx_main_v1 i k = ix2 (i 1) k :=
  funext fun a => Fin.ext (by match a with | ⟨0, _⟩ => rfl | ⟨1, _⟩ => rfl)

/-- The scale's (and the bias's) two broadcasts read the vector at the column coordinate. -/
theorem bidx_eq (i : S8192x4096.Idx) : idx_main_v2 (idx_main_v3 i) = ix1 (i 1) :=
  funext fun a => Fin.ext (by match a with | ⟨0, _⟩ => rfl)

theorem bidx_eq' (i : S8192x4096.Idx) : idx_main_v5 (idx_main_v6 i) = ix1 (i 1) :=
  funext fun a => Fin.ext (by match a with | ⟨0, _⟩ => rfl)

/-- The reference's result is the layer. -/
theorem ref_eq (x0 : (⟨S8192x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = Cert.QLin.qlin x0 x1 x2 x3 := by
  funext i
  rw [val_main_v7_apply, val_main_v4_apply, val_main_v1_apply, val_main_v3_apply, val_main_v2_apply,
    val_main_v6_apply, val_main_v5_apply]
  simp only [val_main_v0_apply, lidx_eq, ridx_eq, bidx_eq, bidx_eq']
  rfl

end Cert.QLin.Ref

end
-- ==== Proof.lean ====
/-
  A quantized linear layer: activations x : [8192, 4096], integer weights w : [4096, 4096], per-feature scales
  s and biases b : [4096]; the result at (t, o) is (∑ k, x[t, k] · w[o, k]) · s[o] + b[o].

  The kernel computes it block by block over an 8 × 16 grid — a [1024, 4096] block of activations against a
  [256, 4096] block of weights, contracted along the second axis of both, then scaled and shifted by the
  matching 256 entries of s and b — and the reference computes it as one contraction of the whole arrays
  followed by a broadcast product and a broadcast sum. On the extended reals the roundings of the product's
  operands are the identity and the conversion of an integer weight is exact, so both results are, entry by
  entry, the same expression of the same entries of the arguments (`Cert.QLin.qlin`): the kernel's by reading
  each block's stored value at an entry and tiling the result with the 128 blocks, the reference's by reading
  its operations at an index one after the other. No law of the extended reals beyond these readings is used,
  and the finiteness of the inputs is never needed.
-/
import proofs.«142029_j89060441849929_2_alg».proof.Defs
import proofs.«142029_j89060441849929_2_alg».proof.Proof.Gen.Kernel
import proofs.«142029_j89060441849929_2_alg».proof.Proof.Gen.Kernel.Skeleton
import proofs.«142029_j89060441849929_2_alg».proof.Proof.Gen.Kernel.Launch
import proofs.«142029_j89060441849929_2_alg».proof.Proof.Gen.Kernel.Points
import proofs.«142029_j89060441849929_2_alg».proof.Proof.Gen.Kernel.Frame
import proofs.«142029_j89060441849929_2_alg».proof.Proof.Gen.KernelIdeal
import proofs.«142029_j89060441849929_2_alg».proof.Proof.Gen.KernelIdeal.Skeleton
import proofs.«142029_j89060441849929_2_alg».proof.Proof.Gen.KernelIdeal.Launch
import proofs.«142029_j89060441849929_2_alg».proof.Proof.Gen.KernelIdeal.Points
import proofs.«142029_j89060441849929_2_alg».proof.Proof.Gen.KernelIdeal.Frame
import proofs.«142029_j89060441849929_2_alg».proof.Proof.Gen.ReferenceIdeal
import proofs.«142029_j89060441849929_2_alg».proof.Proof.Gen.Pre_finite_inputs
import proofs.«142029_j89060441849929_2_alg».proof.Proof.Gen.KernelIdeal.Value
import proofs.«142029_j89060441849929_2_alg».proof.Proof.Gen.ReferenceIdeal.Run
import proofs.«142029_j89060441849929_2_alg».proof.Proof.Gen.ReferenceIdeal.Read
import proofs.«142029_j89060441849929_2_alg».proof.Proof.Blocks
import proofs.«142029_j89060441849929_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the (agreeing) argument arrays in their result. -/
theorem algebraic : Cert.algebraic_KernelIdeal_ReferenceIdeal := by
  intro m ρ m' ρ' _ hagree
  refine ⟨fun c => Cert.QLin.Blocks.result m c, Cert.QLin.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.QLin.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
